-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S65536x512 : Shape := ⟨2, ![65536, 512]⟩
abbrev S524288x512 : Shape := ⟨2, ![524288, 512]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S524288x512 : S_.BroadcastsInDim S524288x512 (![] : Fin 0 → Fin S524288x512.rank)
  reducesTo_S524288x512_S_d0_1 : S524288x512.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128x64 .f32) (main_arg8 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S512x256 .f32) (main_arg5 : FVec F S256x128 .f32) (main_arg6 : FVec F S256x128 .f32) (main_arg7 : FVec F S128x64 .f32) (main_arg8 : FVec F S64 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S65536x512 .f32) (main_arg2 : FVec F S524288x512 .f32) (main_arg3 : FVec F S512x256 .f32) (main_arg4 : FVec F S512x256 .f32) (main_arg5 : FVec F S256x128 .f32) (main_arg6 : FVec F S256x128 .f32) (main_arg7 : FVec F S128x64 .f32) (main_arg8 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S524288x512 .f32 := Host.absf main_arg2
  let main_cst_2 : FVec F S_ .f32 := constant S_ .f32 0x7F800000#32
  let main_v10 : FVec F S524288x512 .f32 := broadcastInDim S524288x512 ![] bcast_S_S524288x512 main_cst_2
  let main_v11 : IVec S524288x512 1 := cmpf .olt main_v9 main_v10
  let main_c_3 : IVec S_ 1 := constantI S_ 1 1#1
  let main_v12 : IVec S_ 1 := (fun x v => Host.reduce IntOp.andi x v reducesTo_S524288x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S65536x512 : Shape := ⟨2, ![65536, 512]⟩
abbrev S524288x512 : Shape := ⟨2, ![524288, 512]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S1x64 : Shape := ⟨2, ![1, 64]⟩
abbrev S8192x64 : Shape := ⟨2, ![8192, 64]⟩
abbrev S128x512 : Shape := ⟨2, ![128, 512]⟩
abbrev S1024x512 : Shape := ⟨2, ![1024, 512]⟩
abbrev S128x8x512 : Shape := ⟨3, ![128, 8, 512]⟩
abbrev S1024x256 : Shape := ⟨2, ![1024, 256]⟩
abbrev S128x256 : Shape := ⟨2, ![128, 256]⟩
abbrev S128x8x256 : Shape := ⟨3, ![128, 8, 256]⟩
abbrev S128x128 : Shape := ⟨2, ![128, 128]⟩

abbrev nBuf : Space → Nat
  | .hbm => 16
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S65536x512, .f32⟩
  | .hbm, ⟨2, _⟩ => ⟨S524288x512, .f32⟩
  | .hbm, ⟨3, _⟩ => ⟨S512x256, .f32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S128x64, .f32⟩
  | .hbm, ⟨8, _⟩ => ⟨S64, .f32⟩
  | .hbm, ⟨9, _⟩ => ⟨S512x256, .bf16⟩
  | .hbm, ⟨10, _⟩ => ⟨S512x256, .bf16⟩
  | .hbm, ⟨11, _⟩ => ⟨S256x128, .bf16⟩
  | .hbm, ⟨12, _⟩ => ⟨S256x128, .bf16⟩
  | .hbm, ⟨13, _⟩ => ⟨S128x64, .bf16⟩
  | .hbm, ⟨14, _⟩ => ⟨S1x64, .f32⟩
  | .hbm, ⟨15, _⟩ => ⟨S8192x64, .f32⟩
  | .local _ .vmem, ⟨0, _⟩ => ⟨S128x512, .f32⟩
  | .local _ .vmem, ⟨1, _⟩ => ⟨S128x512, .f32⟩
  | .local _ .vmem, ⟨2, _⟩ => ⟨S1024x512, .f32⟩
  | .local _ .vmem, ⟨3, _⟩ => ⟨S1024x512, .f32⟩
  | .local _ .vmem, ⟨4, _⟩ => ⟨S8192x512, .f32⟩
  | .local _ .vmem, ⟨5, _⟩ => ⟨S8192x512, .f32⟩
  | .local _ .vmem, ⟨6, _⟩ => ⟨S512x256, .bf16⟩
  | .local _ .vmem, ⟨7, _⟩ => ⟨S512x256, .bf16⟩
  | .local _ .vmem, ⟨8, _⟩ => ⟨S256x128, .bf16⟩
  | .local _ .vmem, ⟨9, _⟩ => ⟨S256x128, .bf16⟩
  | .local _ .vmem, ⟨10, _⟩ => ⟨S128x64, .bf16⟩
  | .local _ .vmem, ⟨11, _⟩ => ⟨S1x64, .f32⟩
  | .local _ .vmem, ⟨12, _⟩ => ⟨S128x64, .f32⟩
  | .local _ .vmem, ⟨13, _⟩ => ⟨S128x64, .f32⟩
  | .local _ .vmem, ⟨14, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S64_S1x64 : S64.ShapeCasts S1x64
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S8192x512_S1024x512_0_0 : ∀ a, (![0, 0] : Fin 2 → Nat) a + S1024x512.size a ≤ S8192x512.size a
  h_S1024x512 : 0 < S1024x512.numel
  shapeCasts_S1024x512_S128x8x512 : S1024x512.ShapeCasts S128x8x512
  reduces_S128x8x512_S128x512 : S128x8x512.Reduces [1] S128x512
  inb_S1024x512_S128x512_0_0 : ∀ a, (![0, 0] : Fin 2 → Nat) a + S128x512.size a ≤ S1024x512.size a
  h_S128x512 : 0 < S128x512.numel
  shapeCasts_S128x512_S128x512 : S128x512.ShapeCasts S128x512
  inb_S8192x512_S1024x512_1024_0 : ∀ a, (![1024, 0] : Fin 2 → Nat) a + S1024x512.size a ≤ S8192x512.size a
  inb_S1024x512_S128x512_128_0 : ∀ a, (![128, 0] : Fin 2 → Nat) a + S128x512.size a ≤ S1024x512.size a
  inb_S8192x512_S1024x512_2048_0 : ∀ a, (![2048, 0] : Fin 2 → Nat) a + S1024x512.size a ≤ S8192x512.size a
  inb_S1024x512_S128x512_256_0 : ∀ a, (![256, 0] : Fin 2 → Nat) a + S128x512.size a ≤ S1024x512.size a
  inb_S8192x512_S1024x512_3072_0 : ∀ a, (![3072, 0] : Fin 2 → Nat) a + S1024x512.size a ≤ S8192x512.size a
  inb_S1024x512_S128x512_384_0 : ∀ a, (![384, 0] : Fin 2 → Nat) a + S128x512.size a ≤ S1024x512.size a
  inb_S8192x512_S1024x512_4096_0 : ∀ a, (![4096, 0] : Fin 2 → Nat) a + S1024x512.size a ≤ S8192x512.size a
  inb_S1024x512_S128x512_512_0 : ∀ a, (![512, 0] : Fin 2 → Nat) a + S128x512.size a ≤ S1024x512.size a
  inb_S8192x512_S1024x512_5120_0 : ∀ a, (![5120, 0] : Fin 2 → Nat) a + S1024x512.size a ≤ S8192x512.size a
  inb_S1024x512_S128x512_640_0 : ∀ a, (![640, 0] : Fin 2 → Nat) a + S128x512.size a ≤ S1024x512.size a
  inb_S8192x512_S1024x512_6144_0 : ∀ a, (![6144, 0] : Fin 2 → Nat) a + S1024x512.size a ≤ S8192x512.size a
  inb_S1024x512_S128x512_768_0 : ∀ a, (![768, 0] : Fin 2 → Nat) a + S128x512.size a ≤ S1024x512.size a
  inb_S8192x512_S1024x512_7168_0 : ∀ a, (![7168, 0] : Fin 2 → Nat) a + S1024x512.size a ≤ S8192x512.size a
  inb_S1024x512_S128x512_896_0 : ∀ a, (![896, 0] : Fin 2 → Nat) a + S128x512.size a ≤ S1024x512.size a
  inb_S1024x512_S1024x512_0_0 : ∀ a, (![0, 0] : Fin 2 → Nat) a + S1024x512.size a ≤ S1024x512.size a
  inb_S128x512_S128x512_0_0 : ∀ a, (![0, 0] : Fin 2 → Nat) a + S128x512.size a ≤ S128x512.size a
  shapeCasts_S1024x256_S128x8x256 : S1024x256.ShapeCasts S128x8x256
  reduces_S128x8x256_S128x256 : S128x8x256.Reduces [1] S128x256
  broadcasts_S1x64_S128x64 : S1x64.Broadcasts S128x64
  dot_S1024x512_S512x256_S1024x256_1_0_0_1_n_n_wf : DotDims.WF S1024x512 S512x256 S1024x256 [1] [0] [0] [1] [] []
  dot_S128x512_S512x256_S128x256_1_0_0_1_n_n_wf : DotDims.WF S128x512 S512x256 S128x256 [1] [0] [0] [1] [] []
  dot_S128x256_S256x128_S128x128_1_0_0_1_n_n_wf : DotDims.WF S128x256 S256x128 S128x128 [1] [0] [0] [1] [] []
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x512.size a ≤ S524288x512.size a
  hwx0_2 : ∀ i : grid0.Coords, EltTy.bits .f32 = 32 ∨ (Rect.block (s := S524288x512) S8192x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S8192x64.size a
  hwx0_9 : ∀ i : grid0.Coords, EltTy.bits .f32 = 32 ∨ (Rect.block (s := S8192x64) S128x64.size (cc0_transform_9 i) (hinb0_9 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S128x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x512 : Shape := ⟨2, ![8192, 512]⟩
abbrev S65536x512 : Shape := ⟨2, ![65536, 512]⟩
abbrev S524288x512 : Shape := ⟨2, ![524288, 512]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S8192x8x512 : Shape := ⟨3, ![8192, 8, 512]⟩
abbrev S_ : Shape := ⟨0, ![]⟩
abbrev S8192x256 : Shape := ⟨2, ![8192, 256]⟩
abbrev S65536x8x512 : Shape := ⟨3, ![65536, 8, 512]⟩
abbrev S65536x256 : Shape := ⟨2, ![65536, 256]⟩
abbrev S8192x8x256 : Shape := ⟨3, ![8192, 8, 256]⟩
abbrev S8192x128 : Shape := ⟨2, ![8192, 128]⟩
abbrev S8192x64 : Shape := ⟨2, ![8192, 64]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S65536x512, .f32⟩
  | .hbm, ⟨2, _⟩ => ⟨S524288x512, .f32⟩
  | .hbm, ⟨3, _⟩ => ⟨S512x256, .f32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S128x64, .f32⟩
  | .hbm, ⟨8, _⟩ => ⟨S64, .f32⟩
  | .hbm, ⟨9, _⟩ => ⟨S8192x8x512, .f32⟩
  | .hbm, ⟨10, _⟩ => ⟨S_, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S65536x8x512, .f32⟩
  | .hbm, ⟨22, _⟩ => ⟨S_, .f32⟩
  | .hbm, ⟨23, _⟩ => ⟨S65536x512, .f32⟩
  | .hbm, ⟨24, _⟩ => ⟨S_, .f32⟩
  | .hbm, ⟨25, _⟩ => ⟨S65536x512, .f32⟩
  | .hbm, ⟨26, _⟩ => ⟨S65536x512, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S8192x8x256, .f32⟩
  | .hbm, ⟨34, _⟩ => ⟨S_, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S_, .f32⟩
  | .hbm, ⟨43, _⟩ => ⟨S8192x128, .f32⟩
  | .hbm, ⟨44, _⟩ => ⟨S8192x128, .f32⟩
  | .hbm, ⟨45, _⟩ => ⟨S8192x64, .f32⟩
  | .hbm, ⟨46, _⟩ => ⟨S1x64, .f32⟩
  | .hbm, ⟨47, _⟩ => ⟨S8192x64, .f32⟩
  | .hbm, ⟨48, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_cst : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  shapeCasts_S65536x512_S8192x8x512 : S65536x512.ShapeCasts S8192x8x512
  reducesTo_S8192x8x512_S8192x512_d1 : S8192x8x512.ReducesTo [1] S8192x512
  h_S_ : 0 < S_.numel
  bcast_S_S8192x512 : S_.BroadcastsInDim S8192x512 (![] : Fin 0 → Fin S8192x512.rank)
  bcast_S_S8192x256 : S_.BroadcastsInDim S8192x256 (![] : Fin 0 → Fin S8192x256.rank)
  shapeCasts_S524288x512_S65536x8x512 : S524288x512.ShapeCasts S65536x8x512
  reducesTo_S65536x8x512_S65536x512_d1 : S65536x8x512.ReducesTo [1] S65536x512
  bcast_S_S65536x512 : S_.BroadcastsInDim S65536x512 (![] : Fin 0 → Fin S65536x512.rank)
  bcast_S_S65536x256 : S_.BroadcastsInDim S65536x256 (![] : Fin 0 → Fin S65536x256.rank)
  shapeCasts_S65536x256_S8192x8x256 : S65536x256.ShapeCasts S8192x8x256
  reducesTo_S8192x8x256_S8192x256_d1 : S8192x8x256.ReducesTo [1] S8192x256
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x512_S512x256_S8192x256_1_0_0_1_n_n_wf : DotDims.WF S8192x512 S512x256 S8192x256 [1] [0] [0] [1] [] []
  dot_S65536x512_S512x256_S65536x256_1_0_0_1_n_n_wf : DotDims.WF S65536x512 S512x256 S65536x256 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.Spec.lean ====
/-
  The two-hop neighbourhood-mean network as one function of its argument arrays, index by index.

  A node's features are combined with the mean of its eight neighbours' features through two weight
  matrices and a rectifier (`layer`); this is done at the roots (over the first-hop neighbours) and at
  the first-hop nodes (over the second-hop neighbours), then once more at the roots over the two
  results, and a linear classifier with a bias finishes (`head`). Rows are indexed by abstract types and
  the neighbour relation is a function `nb : ρ → Fin 8 → ρ'`, so the same definition reads the whole
  arrays (node `r`'s neighbours are rows `8 r + j`) and one tile of consecutive roots with its own
  consecutive neighbours; `net_restrict` says the two readings agree: the network of the restricted
  arrays at a tile's row is the network of the whole arrays at the row it comes from, because a row's
  result depends only on its own neighbours' rows.
-/
import Idealize.ShloMosaic.PureOps.Ideal
import Idealize.ShloMosaic.Lib.ValueIdx

noncomputable section

namespace Cert.Sage

open Idealize.ShloMosaic

/-- The mean of the eight neighbours' rows: their sum divided by the float `8.0`. -/
def mean8 {ρ ρ' κ : Type} (X : ρ' → κ → EReal) (nb : ρ → Fin 8 → ρ') (r : ρ) (d : κ) : EReal :=
  Ideal.div (∑ j : Fin 8, X (nb r j) d) (Ideal.ofBits .f32 0x41000000#32)

/-- One aggregation layer: `max (cur · w2 + agg · w1) 0`, entry `(r, h)`. -/
def layer {ρ κ η : Type} [Fintype κ] (cur agg : ρ → κ → EReal) (w1 w2 : κ → η → EReal) (r : ρ) (h : η) : EReal :=
  max ((∑ k : κ, cur r k * w2 k h) + ∑ k : κ, agg r k * w1 k h) (Ideal.ofBits .f32 0x00000000#32)

/-- The classifier: `b · cw + cb`, entry `(r, c)`. -/
def head {ρ η γ : Type} [Fintype η] (b : ρ → η → EReal) (cw : η → γ → EReal) (cb : γ → EReal) (r : ρ) (c : γ) : EReal :=
  (∑ g : η, b r g * cw g c) + cb c

/-- The first-hop nodes' hidden features: a layer over the second-hop neighbours' mean. -/
def hop1 {ρ1 ρ2 κ0 κ1 : Type} [Fintype κ0] (nb2 : ρ1 → Fin 8 → ρ2)
    (nf1 : ρ1 → κ0 → EReal) (nf2 : ρ2 → κ0 → EReal) (w10 w20 : κ0 → κ1 → EReal) : ρ1 → κ1 → EReal :=
  layer nf1 (mean8 nf2 nb2) w10 w20

/-- The roots' hidden features: a layer over the first-hop neighbours' mean. -/
def hop0 {ρ0 ρ1 κ0 κ1 : Type} [Fintype κ0] (nb1 : ρ0 → Fin 8 → ρ1)
    (nf0 : ρ0 → κ0 → EReal) (nf1 : ρ1 → κ0 → EReal) (w10 w20 : κ0 → κ1 → EReal) : ρ0 → κ1 → EReal :=
  layer nf0 (mean8 nf1 nb1) w10 w20

/-- The whole network: the second layer at the roots over the two first-layer results, then the classifier. -/
def net {ρ0 ρ1 ρ2 κ0 κ1 κ2 γ : Type} [Fintype κ0] [Fintype κ1] [Fintype κ2]
    (nb1 : ρ0 → Fin 8 → ρ1) (nb2 : ρ1 → Fin 8 → ρ2)
    (nf0 : ρ0 → κ0 → EReal) (nf1 : ρ1 → κ0 → EReal) (nf2 : ρ2 → κ0 → EReal)
    (w10 w20 : κ0 → κ1 → EReal) (w11 w21 : κ1 → κ2 → EReal) (cw : κ2 → γ → EReal) (cb : γ → EReal) :
    ρ0 → γ → EReal :=
  head (layer (hop0 nb1 nf0 nf1 w10 w20) (mean8 (hop1 nb2 nf1 nf2 w10 w20) nb1) w11 w21) cw cb

/-- Restricting the rows commutes with the network: if the tile's rows embed into the whole arrays' rows
    compatibly with the neighbour relation, the network of the restricted arrays at a tile row is the
    network of the whole arrays at that row's image. -/
theorem net_restrict {σ0 σ1 σ2 ρ0 ρ1 ρ2 κ0 κ1 κ2 γ : Type} [Fintype κ0] [Fintype κ1] [Fintype κ2]
    (e0 : σ0 → ρ0) (e1 : σ1 → ρ1) (e2 : σ2 → ρ2)
    (mb1 : σ0 → Fin 8 → σ1) (mb2 : σ1 → Fin 8 → σ2) (nb1 : ρ0 → Fin 8 → ρ1) (nb2 : ρ1 → Fin 8 → ρ2)
    (h1 : ∀ r j, e1 (mb1 r j) = nb1 (e0 r) j) (h2 : ∀ q j, e2 (mb2 q j) = nb2 (e1 q) j)
    (nf0 : ρ0 → κ0 → EReal) (nf1 : ρ1 → κ0 → EReal) (nf2 : ρ2 → κ0 → EReal)
    (w10 w20 : κ0 → κ1 → EReal) (w11 w21 : κ1 → κ2 → EReal) (cw : κ2 → γ → EReal) (cb : γ → EReal)
    (r : σ0) (c : γ) :
    net mb1 mb2 (fun a => nf0 (e0 a)) (fun a => nf1 (e1 a)) (fun a => nf2 (e2 a)) w10 w20 w11 w21 cw cb r c
      = net nb1 nb2 nf0 nf1 nf2 w10 w20 w11 w21 cw cb (e0 r) c := by
  simp only [net, head, layer, hop0, hop1, mean8, h1, h2]

/-! ## The arrays' own indexing -/

/-- A two-axis array read by its two coordinates. -/
def cur2 {a b : ℕ} (X : (⟨2, ![a, b]⟩ : Shape).Idx → EReal) (r : Fin a) (d : Fin b) : EReal :=
  X (ValueIdx.ix2 r d)

/-- A one-axis array read by its coordinate. -/
def cur1 {b : ℕ} (X : (⟨1, ![b]⟩ : Shape).Idx → EReal) (c : Fin b) : EReal :=
  X (ValueIdx.ix1 c)

/-- Among `8 n` consecutive rows, node `r`'s `j`-th neighbour is row `8 r + j`. -/
def nbr {n m : ℕ} (hm : n * 8 = m) (r : Fin n) (j : Fin 8) : Fin m :=
  ⟨r.val * 8 + j.val, by have := r.isLt; have := j.isLt; omega⟩

theorem nbr_val {n m : ℕ} (hm : n * 8 = m) (r : Fin n) (j : Fin 8) : (nbr hm r j).val = r.val * 8 + j.val := rfl

/-- The network of the nine argument arrays (8192 roots, 65536 first-hop and 524288 second-hop nodes with 512
    features; weights 512×256, 256×128, 128×64; a bias of 64), at entry `i` of the 8192×64 result. -/
def sage (nf0 : (⟨2, ![8192, 512]⟩ : Shape).Idx → EReal) (nf1 : (⟨2, ![65536, 512]⟩ : Shape).Idx → EReal)
    (nf2 : (⟨2, ![524288, 512]⟩ : Shape).Idx → EReal)
    (w10 w20 : (⟨2, ![512, 256]⟩ : Shape).Idx → EReal) (w11 w21 : (⟨2, ![256, 128]⟩ : Shape).Idx → EReal)
    (cw : (⟨2, ![128, 64]⟩ : Shape).Idx → EReal) (cb : (⟨1, ![64]⟩ : Shape).Idx → EReal)
    (i : (⟨2, ![8192, 64]⟩ : Shape).Idx) : EReal :=
  net (nbr (n := 8192) (m := 65536) (by norm_num)) (nbr (n := 65536) (m := 524288) (by norm_num))
    (cur2 nf0) (cur2 nf1) (cur2 nf2) (cur2 w10) (cur2 w20) (cur2 w11) (cur2 w21) (cur2 cw) (cur1 cb) (i 0) (i 1)

end Cert.Sage

end
-- ==== Proof.LibGroupRows.lean ====
/-
  Rows taken in consecutive groups, for any extents.

  An `[m, d]` array regarded as `[n, g, d]` (row `r * g + j` becomes entry `(r, j)`: `n` consecutive groups of `g`
  rows) read at an index given by coordinates, and the sum over the middle axis of an `[n, g, d]` array read at
  `(r, c)` as the sum of the `g` entries `(r, j, c)`. Together: the sum of each group's rows.
-/
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx

/-- An `[m, d]` array cast to `[n, g, d]` reads, at `(r, j, c)`, the operand's row `r * g + j` at column `c`:
    the two indices have the same row-major position `(r * g + j) * d + c`. -/
theorem shapeCast_groups_apply {α : Type} {m n g d : ℕ} (x : (⟨2, ![m, d]⟩ : Shape).Idx → α)
    (h : (⟨2, ![m, d]⟩ : Shape).ShapeCasts ⟨3, ![n, g, d]⟩) (r : Fin n) (j : Fin g) (c : Fin d)
    (hr : r.val * g + j.val < m) :
    shapeCast ⟨3, ![n, g, d]⟩ x h (ix3 r j c) = x (ix2 ⟨r.val * g + j.val, hr⟩ c) :=
  shapeCast_apply x h _ _ (by
    rw [Shape.rowMajor_val_two, Shape.rowMajor_val_three]
    rfl)

/-- A float sum over the middle axis of an `[n, g, d]` array, read at the extended reals at `(r, c)`, is the sum over
    `j` of the entries `(r, j, c)`: the reduced index with `j` inserted at the middle axis is `(r, j, c)`. -/
theorem multiReduction_add_mid_apply {φ : FTy} {n g d : ℕ} (src : FVec Ideal ⟨3, ![n, g, d]⟩ φ) (acc : BitVec φ.bits)
    (h : (⟨3, ![n, g, d]⟩ : Shape).Reduces [1] ⟨2, ![n, d]⟩) (hφ : FKind.Formats φ) (hacc : acc = FKind.add.neutral φ hφ)
    (r : Fin n) (c : Fin d) :
    multiReduction .add [1] ⟨2, ![n, d]⟩ src acc h hφ hacc (ix2 r c) = ∑ j : Fin g, src (ix3 r j c) := by
  refine (Ideal.multiReduction_add_single src acc h hφ hacc (ix2 r c)).trans ?_
  refine Finset.sum_congr rfl fun j _ => congrArg src (funext fun a => Fin.ext ?_)
  match a with
  | ⟨0, _⟩ => rfl
  | ⟨1, _⟩ => rfl
  | ⟨2, _⟩ => rfl

end Cert.Sage

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.KernelValue.lean ====
/-
  The kernel body's arithmetic, read at the extended reals as parts of the network.

  One grid point holds a tile of 128 roots (`x0`), their 1024 first-hop nodes (`x1`) and 8192 second-hop nodes
  (`x2`). Each stored or returned value of the body is a function of the values loaded before it; here each is
  identified, as a function of coordinates, with a part of the network of `Spec`: a mean of row groups, a layer,
  the classifier. Changing the float format before a product is the identity on extended reals, a product into a
  zero accumulator is the plain sum of products, and a lane sum over the middle axis of the regrouped block is the
  sum over a node's eight neighbours.
-/
import proofs.«119248_j69140383531488_2_alg».proof.Proof.Gen.KernelIdeal.Skeleton
import proofs.«119248_j69140383531488_2_alg».proof.Proof.Spec
import proofs.«119248_j69140383531488_2_alg».proof.Proof.LibGroupRows
import proofs.«119248_j69140383531488_2_alg».proof.Proof.LibPlainDot
import Idealize.ShloMosaic.Lib.ValueLayout
import Idealize.ShloMosaic.Lib.Pipeline.Value
import Idealize.ShloMosaic.Lib.Ring

noncomputable section

namespace Cert.Sage

open Cert.KernelIdeal Cert.KernelIdeal.Gen Idealize.ShloMosaic Idealize.ShloMosaic.ValueIdx Idealize.ShloMosaic.Tactic

/-- A tile's first-hop node `q` (of 1024) has the tile's second-hop rows `8 q + j` as neighbours. -/
abbrev nb1024 : Fin 1024 → Fin 8 → Fin 8192 := nbr (n := 1024) (m := 8192) (by norm_num)
/-- A tile's root `r` (of 128) has the tile's first-hop rows `8 r + j` as neighbours. -/
abbrev nb128 : Fin 128 → Fin 8 → Fin 1024 := nbr (n := 128) (m := 1024) (by norm_num)

/-! ## Means of row groups -/

/-- A 1024×512 block regrouped as 128 groups of 8 rows, summed over each group and divided by `8.0`: the mean of
    each root's eight neighbours' rows. -/
theorem groupMean512 (v : FVec Ideal S1024x512 .f32) :
    cur2 (divf (multiReduction .add [1] S128x512 (shapeCast S128x8x512 v shapeCasts_S1024x512_S128x8x512) 0x00000000#32
        reduces_S128x8x512_S128x512 (.inl rfl) rfl) (broadcast S128x512 (Scalar.ofBits .f32 0x41000000#32)))
      = mean8 (cur2 v) nb128 := by
  funext r d
  show Ideal.div (multiReduction .add [1] S128x512 (shapeCast S128x8x512 v shapeCasts_S1024x512_S128x8x512) 0x00000000#32
      reduces_S128x8x512_S128x512 (.inl rfl) rfl (ix2 r d)) (Ideal.ofBits .f32 0x41000000#32) = _
  unfold mean8
  refine congrArg (fun s => Ideal.div s (Ideal.ofBits .f32 0x41000000#32)) ?_
  refine (multiReduction_add_mid_apply _ _ _ _ _ r d).trans ?_
  exact Finset.sum_congr rfl fun j _ => shapeCast_groups_apply v _ r j d _

/-- The same for the 1024×256 block of first-hop hidden features. -/
theorem groupMean256 (v : FVec Ideal S1024x256 .f32) :
    cur2 (divf (multiReduction .add [1] S128x256 (shapeCast S128x8x256 v shapeCasts_S1024x256_S128x8x256) 0x00000000#32
        reduces_S128x8x256_S128x256 (.inl rfl) rfl) (broadcast S128x256 (Scalar.ofBits .f32 0x41000000#32)))
      = mean8 (cur2 v) nb128 := by
  funext r d
  show Ideal.div (multiReduction .add [1] S128x256 (shapeCast S128x8x256 v shapeCasts_S1024x256_S128x8x256) 0x00000000#32
      reduces_S128x8x256_S128x256 (.inl rfl) rfl (ix2 r d)) (Ideal.ofBits .f32 0x41000000#32) = _
  unfold mean8
  refine congrArg (fun s => Ideal.div s (Ideal.ofBits .f32 0x41000000#32)) ?_
  refine (multiReduction_add_mid_apply _ _ _ _ _ r d).trans ?_
  exact Finset.sum_congr rfl fun j _ => shapeCast_groups_apply v _ r j d _

/-- The value stored into a 128-row slab of the scratch buffer: the group means of a 1024-row chunk. -/
theorem slabMean (v : Vec Ideal S1024x512 .f32) : cur2 (k0_pay8 (F := Ideal) v) = mean8 (cur2 v) nb128 := by
  unfold k0_pay8
  dsimp only
  rw [shapeCast_self]
  exact groupMean512 v

/-! ## Products into a zero accumulator -/

/-- The first-hop product: a 1024×512 block by a 512×256 weight. -/
theorem mm1024 (a : FVec Ideal S1024x512 .bf16) (b : FVec Ideal S512x256 .bf16) :
    cur2 (matmul dot_S1024x512_S512x256_S1024x256_1_0_0_1_n_n none a b (constant S1024x256 .f32 0x00000000#32))
      = fun r c => ∑ k : Fin 512, cur2 a r k * cur2 b k c := by
  funext r c
  exact matmul_plain_zero_apply none a b r c

/-- The root product of the first layer: 128×512 by 512×256. -/
theorem mm128a (a : FVec Ideal S128x512 .bf16) (b : FVec Ideal S512x256 .bf16) :
    cur2 (matmul dot_S128x512_S512x256_S128x256_1_0_0_1_n_n none a b (constant S128x256 .f32 0x00000000#32))
      = fun r c => ∑ k : Fin 512, cur2 a r k * cur2 b k c := by
  funext r c
  exact matmul_plain_zero_apply none a b r c

/-- The second layer's product: 128×256 by 256×128. -/
theorem mm128b (a : FVec Ideal S128x256 .bf16) (b : FVec Ideal S256x128 .bf16) :
    cur2 (matmul dot_S128x256_S256x128_S128x128_1_0_0_1_n_n none a b (constant S128x128 .f32 0x00000000#32))
      = fun r c => ∑ k : Fin 256, cur2 a r k * cur2 b k c := by
  funext r c
  exact matmul_plain_zero_apply none a b r c

/-- The classifier's product: 128×128 by 128×64. -/
theorem mm128c (a : FVec Ideal S128x128 .bf16) (b : FVec Ideal S128x64 .bf16) :
    cur2 (matmul dot_S128x128_S128x64_S128x64_1_0_0_1_n_n none a b (constant S128x64 .f32 0x00000000#32))
      = fun r c => ∑ k : Fin 128, cur2 a r k * cur2 b k c := by
  funext r c
  exact matmul_plain_zero_apply none a b r c

/-! ## The layers -/

/-- The first-hop nodes' hidden features: the layer of the first-hop block `v1` over the aggregated second-hop
    rows `agg` (what the scratch buffer holds). -/
theorem hop1_payload (w1 w2 : FVec Ideal S512x256 .bf16) (v1 agg : Vec Ideal S1024x512 .f32) :
    cur2 (k0_pay18 (F := Ideal) w1 w2 v1 agg) = layer (cur2 v1) (cur2 agg) (cur2 w1) (cur2 w2) := by
  funext q h
  unfold k0_pay18 layer
  dsimp only
  refine congrArg₂ max (congrArg₂ (· + ·) ?_ ?_) rfl
  · exact congrFun (congrFun (mm1024 _ w2) q) h
  · exact congrFun (congrFun (mm1024 _ w1) q) h

/-- The roots' hidden features: the layer of the root block `v0` over the mean of the first-hop block's row groups. -/
theorem hop0_payload (w1 w2 : FVec Ideal S512x256 .bf16) (v1 : Vec Ideal S1024x512 .f32) (v0 : Vec Ideal S128x512 .f32) :
    cur2 (k0_pay19 (F := Ideal) w1 w2 v1 v0) = layer (cur2 v0) (mean8 (cur2 v1) nb128) (cur2 w1) (cur2 w2) := by
  funext r h
  unfold k0_pay19 layer
  dsimp only
  refine congrArg₂ max (congrArg₂ (· + ·) ?_ ?_) rfl
  · exact congrFun (congrFun (mm128a _ w2) r) h
  · refine (congrFun (congrFun (mm128a _ w1) r) h).trans ?_
    exact Finset.sum_congr rfl fun k _ => congrArg (· * cur2 w1 k h) (congrFun (congrFun (groupMean512 v1) r) k)

/-- The stored block: the second layer at the roots over the mean of the first-hop hidden features `h1`, then the
    classifier with its bias row. -/
theorem out_payload (w1 w2 : FVec Ideal S256x128 .bf16) (cw : FVec Ideal S128x64 .bf16) (cb : FVec Ideal S1x64 .f32)
    (h1 : FVec Ideal S1024x256 .f32) (h0 : FVec Ideal S128x256 .f32) :
    cur2 (k0_pay1 (F := Ideal) w1 w2 cw cb h1 h0)
      = head (layer (cur2 h0) (mean8 (cur2 h1) nb128) (cur2 w1) (cur2 w2)) (cur2 cw) (fun c => cb (ix2 (0 : Fin 1) c)) := by
  funext r c
  unfold k0_pay1 head
  dsimp only
  refine congrArg₂ (· + ·) ?_ ?_
  · refine (congrFun (congrFun (mm128c _ cw) r) c).trans ?_
    refine Finset.sum_congr rfl fun g _ => congrArg (· * cur2 cw g c) ?_
    unfold layer
    refine congrArg₂ max (congrArg₂ (· + ·) ?_ ?_) rfl
    · exact congrFun (congrFun (mm128b _ w2) r) g
    · refine (congrFun (congrFun (mm128b _ w1) r) g).trans ?_
      exact Finset.sum_congr rfl fun k _ => congrArg (· * cur2 w1 k g) (congrFun (congrFun (groupMean256 h1) r) k)
  · exact broadcastTo_1b_ab_apply cb _ r c

/-! ## The scratch buffer: eight slabs, one function

The second-hop block's 8192 rows are reduced in eight chunks of 1024 rows; chunk `c`'s 128 group means are stored
into rows `128 c … 128 c + 127` of the 1024×512 scratch buffer. Row `q = 128 c + r` of the scratch therefore
holds the mean of rows `1024 c + 8 r + j = 8 q + j` of the block: the mean of first-hop node `q`'s eight
neighbours, whatever the chunk. -/

/-- One slab: the chunk loaded at row offset `oin = 8 * oout` and stored at row offset `oout`, read at a local
    index `x`, is the neighbour mean at the scratch row `x` lands on. -/
theorem slab_piece (x2 : Vec Ideal S8192x512 .f32) (oin oout : ℕ) (h : oin = oout * 8)
    (inbI : ∀ a, (![oin, 0] : Fin 2 → ℕ) a + S1024x512.size a ≤ S8192x512.size a)
    (inbO : ∀ a, (![oout, 0] : Fin 2 → ℕ) a + S128x512.size a ≤ S1024x512.size a)
    (x : (Rect.unit (s := S1024x512) ![oout, 0] S128x512.size inbO).shape.Idx) :
    k0_pay8 (F := Ideal) (View.ld x2 (Rect.unit (s := S8192x512) ![oin, 0] S1024x512.size inbI)) x
      = mean8 (cur2 x2) nb1024 ((Rect.unit (s := S1024x512) ![oout, 0] S128x512.size inbO).emb x 0)
          ((Rect.unit (s := S1024x512) ![oout, 0] S128x512.size inbO).emb x 1) := by
  obtain ⟨r, d, rfl⟩ : ∃ (r : Fin 128) (d : Fin 512), x = ix2 r d := ⟨x 0, x 1, eq_ix2 x⟩
  refine (congrFun (congrFun (slabMean _) r) d).trans ?_
  unfold mean8
  refine congrArg (fun s => Ideal.div s (Ideal.ofBits .f32 0x41000000#32)) (Finset.sum_congr rfl fun j _ => ?_)
  refine congrArg x2 (funext fun a => Fin.ext ?_)
  match a with
  | ⟨0, _⟩ =>
    show oin + 1 * (r.val * 8 + j.val) = (oout + 1 * r.val) * 8 + j.val
    omega
  | ⟨1, _⟩ => rfl

/-- The eight stores into the scratch buffer, last first. -/
def slabs (x2 : Vec Ideal S8192x512 .f32) : List (View.Piece (Elt Ideal) S1024x512 .f32) :=
  [⟨Rect.unit ![896, 0] S128x512.size inb_S1024x512_S128x512_896_0,
      k0_pay17 (View.ld x2 (Rect.unit ![7168, 0] S1024x512.size inb_S8192x512_S1024x512_7168_0))⟩,
    ⟨Rect.unit ![768, 0] S128x512.size inb_S1024x512_S128x512_768_0,
      k0_pay16 (k0_pay15 (View.ld x2 (Rect.unit ![6144, 0] S1024x512.size inb_S8192x512_S1024x512_6144_0)))⟩,
    ⟨Rect.unit ![640, 0] S128x512.size inb_S1024x512_S128x512_640_0,
      k0_pay14 (View.ld x2 (Rect.unit ![5120, 0] S1024x512.size inb_S8192x512_S1024x512_5120_0))⟩,
    ⟨Rect.unit ![512, 0] S128x512.size inb_S1024x512_S128x512_512_0,
      k0_pay13 (View.ld x2 (Rect.unit ![4096, 0] S1024x512.size inb_S8192x512_S1024x512_4096_0))⟩,
    ⟨Rect.unit ![384, 0] S128x512.size inb_S1024x512_S128x512_384_0,
      k0_pay12 (View.ld x2 (Rect.unit ![3072, 0] S1024x512.size inb_S8192x512_S1024x512_3072_0))⟩,
    ⟨Rect.unit ![256, 0] S128x512.size inb_S1024x512_S128x512_256_0,
      k0_pay11 (k0_pay10 (View.ld x2 (Rect.unit ![2048, 0] S1024x512.size inb_S8192x512_S1024x512_2048_0)))⟩,
    ⟨Rect.unit ![128, 0] S128x512.size inb_S1024x512_S128x512_128_0,
      k0_pay9 (View.ld x2 (Rect.unit ![1024, 0] S1024x512.size inb_S8192x512_S1024x512_1024_0))⟩,
    ⟨Rect.unit ![0, 0] S128x512.size inb_S1024x512_S128x512_0_0,
      k0_pay8 (View.ld x2 (Rect.unit ![0, 0] S1024x512.size inb_S8192x512_S1024x512_0_0))⟩]

/-- What a load of the whole scratch buffer reads after the eight stores. -/
def agg2 (x2 : Vec Ideal S8192x512 .f32) : Vec Ideal S1024x512 .f32 := fun j =>
  View.canon (slabs x2) ((Rect.unit (s := S1024x512) ![0, 0] S1024x512.size inb_S1024x512_S1024x512_0_0).toLoadRect.idx j)

/-- Every slab is a block of the one function "mean of node `q`'s eight neighbours". -/
theorem slabs_pieces (x2 : Vec Ideal S8192x512 .f32) :
    ∀ p ∈ slabs x2, ∀ x : p.1.shape.Idx,
      p.2 x = (fun y : S1024x512.Idx => mean8 (cur2 x2) nb1024 (y 0) (y 1)) (p.1.emb x) := by
  intro p hp x
  unfold slabs at hp
  rcases List.mem_cons.mp hp with rfl | hp
  · exact slab_piece x2 7168 896 rfl inb_S8192x512_S1024x512_7168_0 inb_S1024x512_S128x512_896_0 x
  rcases List.mem_cons.mp hp with rfl | hp
  · exact slab_piece x2 6144 768 rfl inb_S8192x512_S1024x512_6144_0 inb_S1024x512_S128x512_768_0 x
  rcases List.mem_cons.mp hp with rfl | hp
  · exact slab_piece x2 5120 640 rfl inb_S8192x512_S1024x512_5120_0 inb_S1024x512_S128x512_640_0 x
  rcases List.mem_cons.mp hp with rfl | hp
  · exact slab_piece x2 4096 512 rfl inb_S8192x512_S1024x512_4096_0 inb_S1024x512_S128x512_512_0 x
  rcases List.mem_cons.mp hp with rfl | hp
  · exact slab_piece x2 3072 384 rfl inb_S8192x512_S1024x512_3072_0 inb_S1024x512_S128x512_384_0 x
  rcases List.mem_cons.mp hp with rfl | hp
  · exact slab_piece x2 2048 256 rfl inb_S8192x512_S1024x512_2048_0 inb_S1024x512_S128x512_256_0 x
  rcases List.mem_cons.mp hp with rfl | hp
  · exact slab_piece x2 1024 128 rfl inb_S8192x512_S1024x512_1024_0 inb_S1024x512_S128x512_128_0 x
  rcases List.mem_cons.mp hp with rfl | hp
  · exact slab_piece x2 0 0 rfl inb_S8192x512_S1024x512_0_0 inb_S1024x512_S128x512_0_0 x
  exact absurd hp List.not_mem_nil

/-- The scratch buffer read whole is the neighbour mean of the second-hop block. -/
theorem agg2_eq (x2 : Vec Ideal S8192x512 .f32) : cur2 (agg2 x2) = mean8 (cur2 x2) nb1024 := by
  funext q d
  unfold cur2 agg2
  refine (View.canon_apply_of_pieces (fun y : S1024x512.Idx => mean8 (cur2 x2) nb1024 (y 0) (y 1)) (slabs x2)
    (slabs_pieces x2) _ (View.cover_of_tiledL (slabs x2) S128x512.size (by sl_kernel_rfl) _)).trans ?_
  show mean8 (cur2 x2) nb1024 ⟨0 + 1 * q.val, _⟩ ⟨0 + 1 * d.val, _⟩ = mean8 (cur2 x2) nb1024 q d
  congr 1 <;> exact Fin.ext (by simp)

/-! ## The tile's value -/

/-- The block one grid point stores, as the body's payloads composed over the loaded blocks. -/
def tileVal (x0 : Vec Ideal S128x512 .f32) (x1 : Vec Ideal S1024x512 .f32) (x2 : Vec Ideal S8192x512 .f32)
    (x3 x4 : Vec Ideal S512x256 .bf16) (x5 x6 : Vec Ideal S256x128 .bf16) (x7 : Vec Ideal S128x64 .bf16)
    (x8 : Vec Ideal S1x64 .f32) : Vec Ideal S128x64 .f32 :=
  k0_pay1 (k0_pay4 x5) (k0_pay5 x6) (k0_pay6 x7) (k0_pay7 x8)
    (k0_pay18 (k0_pay2 x3) (k0_pay3 x4) x1 (agg2 x2)) (k0_pay19 (k0_pay2 x3) (k0_pay3 x4) x1 x0)

/-- The tile's stored block is the network of the tile's own blocks. -/
theorem tileVal_eq (x0 : Vec Ideal S128x512 .f32) (x1 : Vec Ideal S1024x512 .f32) (x2 : Vec Ideal S8192x512 .f32)
    (x3 x4 : Vec Ideal S512x256 .bf16) (x5 x6 : Vec Ideal S256x128 .bf16) (x7 : Vec Ideal S128x64 .bf16)
    (x8 : Vec Ideal S1x64 .f32) :
    cur2 (tileVal x0 x1 x2 x3 x4 x5 x6 x7 x8)
      = net nb128 nb1024 (cur2 x0) (cur2 x1) (cur2 x2) (cur2 x3) (cur2 x4) (cur2 x5) (cur2 x6) (cur2 x7)
          (fun c => x8 (ix2 (0 : Fin 1) c)) := by
  have e2 : k0_pay2 (F := Ideal) x3 = x3 := shapeCast_self _ _
  have e3 : k0_pay3 (F := Ideal) x4 = x4 := shapeCast_self _ _
  have e4 : k0_pay4 (F := Ideal) x5 = x5 := shapeCast_self _ _
  have e5 : k0_pay5 (F := Ideal) x6 = x6 := shapeCast_self _ _
  have e6 : k0_pay6 (F := Ideal) x7 = x7 := shapeCast_self _ _
  have e7 : k0_pay7 (F := Ideal) x8 = x8 := shapeCast_self _ _
  unfold tileVal net hop0 hop1
  rw [e2, e3, e4, e5, e6, e7, out_payload, hop1_payload, hop0_payload, agg2_eq]

end Cert.Sage

end
-- ==== Proof.KernelPiece.lean ====
/-
  What one grid point leaves in the output's staging buffer.

  The body's run ends with one store that covers the whole 128×64 output block; its value is the last payload
  applied to the values the earlier loads read. Each load of a whole input buffer reads that buffer's contents, and
  the load of the whole scratch buffer reads what the eight slab stores left there. So the block is `tileVal` of
  the point's input blocks.
-/
import proofs.«119248_j69140383531488_2_alg».proof.Proof.Gen.KernelIdeal.Frame
import proofs.«119248_j69140383531488_2_alg».proof.Proof.KernelValue

set_option maxRecDepth 16384

noncomputable section

namespace Cert.Sage

open Cert.KernelIdeal Cert.KernelIdeal.Gen Idealize.ShloMosaic Idealize.ShloMosaic.TcCoe Idealize.ShloMosaic.Tactic Idealize.SL.Sem

/-- The zero offsets of a two-axis buffer, however spelt. -/
theorem zero_off2 : (![0, 0] : Fin 2 → ℕ) = fun _ => 0 := by
  funext a
  match a with
  | ⟨0, _⟩ => rfl
  | ⟨1, _⟩ => rfl

/-- The contents the run leaves in the output block's buffer, in terms of the loaded blocks. -/
theorem stored_eq (c : Dev nD) (i : grid0.Coords) (arg1 : Memref sig .tc .vmem S128x512 .f32) (harg1 : arg1.IsWhole) (arg2 : Memref sig .tc .vmem S1024x512 .f32) (harg2 : arg2.IsWhole) (arg3 : Memref sig .tc .vmem S8192x512 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S128x64 .bf16) (harg8 : arg8.IsWhole) (arg9 : Memref sig .tc .vmem S1x64 .f32) (harg9 : arg9.IsWhole) (arg10 : Memref sig .tc .vmem S128x64 .f32) (harg10 : arg10.IsWhole) (arg11 : Memref sig .tc .vmem S1024x512 .f32) (harg11 : arg11.IsWhole) (x0 : Vec Ideal S128x512 .f32) (x1 : Vec Ideal S1024x512 .f32) (x2 : Vec Ideal S8192x512 .f32) (x3 : Vec Ideal S512x256 .bf16) (x4 : Vec Ideal S512x256 .bf16) (x5 : Vec Ideal S256x128 .bf16) (x6 : Vec Ideal S256x128 .bf16) (x7 : Vec Ideal S128x64 .bf16) (x8 : Vec Ideal S1x64 .f32) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 = tileVal x0 x1 x2 x3 x4 x5 x6 x7 x8 := by
  unfold out0_A_9
  rw [View.read_writes_junk_eq_canon]
  unfold kernelRun0_A
  dsimp only
  sl_unfold_run_names
  rw [View.canon_unit_zero zero_off2]
  simp only [View.readAt_eq_ld, harg1.read_unread, harg2.read_unread, harg3.read_unread, harg4.read_unread,
    harg5.read_unread, harg6.read_unread, harg7.read_unread, harg8.read_unread, harg9.read_unread,
    View.ld_unit_zero (S := S128x512) zero_off2, View.ld_unit_zero (S := S1024x512) zero_off2,
    View.ld_unit_zero (S := S512x256) zero_off2, View.ld_unit_zero (S := S256x128) zero_off2,
    View.ld_unit_zero (S := S128x64) zero_off2, View.ld_unit_zero (S := S1x64) zero_off2, View.readCov_eq_canon']
  rfl

end Cert.Sage

end
-- ==== Proof.TileNet.lean ====
/-
  A tile's stored block is the whole network at the tile's rows.

  Grid point `tt` (of 64) holds roots `128 tt … 128 tt + 127`, first-hop rows `1024 tt …` and second-hop rows
  `8192 tt …`: consecutive roots have consecutive neighbours, so root `128 tt + r`'s neighbours are the tile's
  rows `8 r + j` moved by `1024 tt`, and likewise one hop further. The weights and the bias row are the same at
  every point. Hence the network of the tile's blocks at `(r, c)` is the network of the whole arrays at
  `(128 tt + r, c)`.
-/
import proofs.«119248_j69140383531488_2_alg».proof.Proof.KernelValue

noncomputable section

namespace Cert.Sage

open Cert.KernelIdeal Cert.KernelIdeal.Gen Idealize.ShloMosaic Idealize.ShloMosaic.ValueIdx

/-- Row `a` of tile `tt`'s block of `n` rows is row `tt * n + a` of the array of `m` rows. -/
def tileRow {n m : ℕ} (tt : ℕ) (h : ∀ a : Fin n, tt * n + a.val < m) (a : Fin n) : Fin m := ⟨tt * n + a.val, h a⟩

theorem tile_is_restriction (tt : ℕ) (ht : tt < 64)
    (A0 : (⟨2, ![8192, 512]⟩ : Shape).Idx → EReal) (A1 : (⟨2, ![65536, 512]⟩ : Shape).Idx → EReal)
    (A2 : (⟨2, ![524288, 512]⟩ : Shape).Idx → EReal)
    (A3 A4 : (⟨2, ![512, 256]⟩ : Shape).Idx → EReal) (A5 A6 : (⟨2, ![256, 128]⟩ : Shape).Idx → EReal)
    (A7 : (⟨2, ![128, 64]⟩ : Shape).Idx → EReal) (A8 : (⟨1, ![64]⟩ : Shape).Idx → EReal)
    (b0 : Vec Ideal S128x512 .f32) (b1 : Vec Ideal S1024x512 .f32) (b2 : Vec Ideal S8192x512 .f32)
    (b3 b4 : Vec Ideal S512x256 .bf16) (b5 b6 : Vec Ideal S256x128 .bf16) (b7 : Vec Ideal S128x64 .bf16)
    (b8 : Vec Ideal S1x64 .f32)
    (h0 : ∀ (r : Fin 128) (d : Fin 512), b0 (ix2 r d) = A0 (ix2 (tileRow (n := 128) (m := 8192) tt (fun a => by have := a.isLt; omega) r) d))
    (h1 : ∀ (q : Fin 1024) (d : Fin 512), b1 (ix2 q d) = A1 (ix2 (tileRow (n := 1024) (m := 65536) tt (fun a => by have := a.isLt; omega) q) d))
    (h2 : ∀ (p : Fin 8192) (d : Fin 512), b2 (ix2 p d) = A2 (ix2 (tileRow (n := 8192) (m := 524288) tt (fun a => by have := a.isLt; omega) p) d))
    (h3 : b3 = A3) (h4 : b4 = A4) (h5 : b5 = A5) (h6 : b6 = A6) (h7 : b7 = A7)
    (h8 : ∀ cc : Fin 64, b8 (ix2 (0 : Fin 1) cc) = A8 (ix1 cc))
    (r : Fin 128) (cc : Fin 64) :
    tileVal b0 b1 b2 b3 b4 b5 b6 b7 b8 (ix2 r cc)
      = sage A0 A1 A2 A3 A4 A5 A6 A7 A8 (ix2 (tileRow (n := 128) (m := 8192) tt (fun a => by have := a.isLt; omega) r) cc) := by
  refine (congrFun (congrFun (tileVal_eq b0 b1 b2 b3 b4 b5 b6 b7 b8) r) cc).trans ?_
  have e0 : cur2 b0 = fun a => cur2 A0 (tileRow (n := 128) (m := 8192) tt (fun a => by have := a.isLt; omega) a) :=
    funext fun a => funext fun d => h0 a d
  have e1 : cur2 b1 = fun a => cur2 A1 (tileRow (n := 1024) (m := 65536) tt (fun a => by have := a.isLt; omega) a) :=
    funext fun a => funext fun d => h1 a d
  have e2 : cur2 b2 = fun a => cur2 A2 (tileRow (n := 8192) (m := 524288) tt (fun a => by have := a.isLt; omega) a) :=
    funext fun a => funext fun d => h2 a d
  have e8 : (fun c => b8 (ix2 (0 : Fin 1) c)) = cur1 A8 := funext fun c => h8 c
  rw [e0, e1, e2, e8, h3, h4, h5, h6, h7]
  unfold sage
  exact net_restrict _ _ _ nb128 nb1024 _ _
    (fun a j => Fin.ext (by show tt * 1024 + (a.val * 8 + j.val) = (tt * 128 + a.val) * 8 + j.val; omega))
    (fun a j => Fin.ext (by show tt * 8192 + (a.val * 8 + j.val) = (tt * 1024 + a.val) * 8 + j.val; omega))
    (cur2 A0) (cur2 A1) (cur2 A2) (cur2 A3) (cur2 A4) (cur2 A5) (cur2 A6) (cur2 A7) (cur1 A8) r cc

end Cert.Sage

end
-- ==== Proof.KernelRun.lean ====
/-
  From the grid points' blocks to the whole result array.

  Grid point `t` fetches block `t` of the three feature arrays (rows `128 t …`, `1024 t …`, `8192 t …`), the
  whole weights and the bias row, and writes block `t` of the 8192×64 result: rows `128 t … 128 t + 127`. What it
  writes is the network of the whole arguments at those rows, and the 64 blocks tile the result's rows, so after
  the run the result array is the network of the arguments at every index. The weights the region finds are the
  arguments with their float format changed (the identity on extended reals) and the bias is the argument
  regarded as one row.
-/
import proofs.«119248_j69140383531488_2_alg».proof.Proof.Gen.KernelIdeal.Value
import proofs.«119248_j69140383531488_2_alg».proof.Proof.KernelPiece
import proofs.«119248_j69140383531488_2_alg».proof.Proof.TileNet
import Idealize.ShloMosaic.Lib.StableHlo.Run
import Idealize.ShloMosaic.Lib.ValueLayout

set_option maxRecDepth 16384

noncomputable section

namespace Cert.Sage

open Cert.KernelIdeal Cert.KernelIdeal.Gen Cert.KernelIdeal.Value Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The network of the argument arrays as launched on core `c`: what the result array ends holding. -/
def result (c : Dev nD) : S8192x64.Idx → EReal :=
  sage (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## The index maps, decided over the 64 grid points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## What the region finds in the buffers the host wrote -/

theorem V_w10 (c : Dev nD) : (V m c main_v0 : S512x256.Idx → EReal) = m ((c : Thread nD τ).loc main_arg3) := by
  dsimp only [Gen.V, Gen.hostOps0]; after_results; rfl
theorem V_w20 (c : Dev nD) : (V m c main_v1 : S512x256.Idx → EReal) = m ((c : Thread nD τ).loc main_arg4) := by
  dsimp only [Gen.V, Gen.hostOps0]; after_results; rfl
theorem V_w11 (c : Dev nD) : (V m c main_v2 : S256x128.Idx → EReal) = m ((c : Thread nD τ).loc main_arg5) := by
  dsimp only [Gen.V, Gen.hostOps0]; after_results; rfl
theorem V_w21 (c : Dev nD) : (V m c main_v3 : S256x128.Idx → EReal) = m ((c : Thread nD τ).loc main_arg6) := by
  dsimp only [Gen.V, Gen.hostOps0]; after_results; rfl
theorem V_cw (c : Dev nD) : (V m c main_v4 : S128x64.Idx → EReal) = m ((c : Thread nD τ).loc main_arg7) := by
  dsimp only [Gen.V, Gen.hostOps0]; after_results; rfl
theorem V_cb (c : Dev nD) : (V m c main_v5 : S1x64.Idx → EReal)
    = shapeCast S1x64 (m ((c : Thread nD τ).loc main_arg8)) shapeCasts_S64_S1x64 := by
  dsimp only [Gen.V, Gen.hostOps0]; after_results; rfl

/-! ## What point `t` writes back -/

/-- WHAT POINT `t` WRITES BACK is block `t` of the network of the arguments. -/
theorem flushed_eq (c : Dev nD) (t : Fin cfg0.N) :
    (dats m 0 c).flushed 9 t = ((cfg0.win 9).blk t).view.read (Elt Ideal) (result m c) := by
  obtain ⟨f00, f01, f10, f11, f20, f21, f30, f31, f40, f41, f50, f51, f60, f61, f70, f71, f80, f81, f90, f91⟩ := idx_facts t
  have ht : t.val < 64 := Nat.lt_of_lt_of_eq t.isLt N_0
  refine (flushed9_A m c t).trans ?_
  refine (congrArg ((cfg0.win 9).cut (grid0.coords t)) (stored_eq c (grid0.coords t) (ms0_0 t) (hs0_0 t) (ms0_1 t) (hs0_1 t)
    (ms0_2 t) (hs0_2 t) (ms0_3 t) (hs0_3 t) (ms0_4 t) (hs0_4 t) (ms0_5 t) (hs0_5 t) (ms0_6 t) (hs0_6 t) (ms0_7 t) (hs0_7 t)
    (ms0_8 t) (hs0_8 t) (ms0_9 t) (hs0_9 t) scM0_0 (Memref.isWhole_whole _) (iblk m c 0 t) (iblk m c 1 t) (iblk m c 2 t)
    (iblk m c 3 t) (iblk m c 4 t) (iblk m c 5 t) (iblk m c 6 t) (iblk m c 7 t) (iblk m c 8 t))).trans ?_
  funext j
  obtain ⟨r, cc, rfl⟩ : ∃ (r : Fin 128) (cc : Fin 64), j = ix2 r cc := ⟨j 0, j 1, eq_ix2 j⟩
  show tileVal (iblk m c 0 t) (iblk m c 1 t) (iblk m c 2 t) (iblk m c 3 t) (iblk m c 4 t) (iblk m c 5 t) (iblk m c 6 t)
      (iblk m c 7 t) (iblk m c 8 t) (ix2 r cc) = result m c (((cfg0.win 9).blk t).view.emb (ix2 r cc))
  have hemb : ((cfg0.win 9).blk t).view.emb (ix2 r cc)
      = ix2 (tileRow (n := 128) (m := 8192) t.val (fun a => by have := a.isLt; omega) r) cc := by
    funext a
    refine Fin.ext ?_
    match a with
    | ⟨0, _⟩ => show win0_9.index t (0 : Fin 2) * 128 + 1 * r.val = t.val * 128 + r.val; rw [f90]; omega
    | ⟨1, _⟩ => show win0_9.index t (1 : Fin 2) * 64 + 1 * cc.val = cc.val; rw [f91]; omega
  rw [hemb]
  unfold result
  refine tile_is_restriction t.val ht _ _ _ _ _ _ _ _ _ (iblk m c 0 t) (iblk m c 1 t) (iblk m c 2 t) (iblk m c 3 t)
    (iblk m c 4 t) (iblk m c 5 t) (iblk m c 6 t) (iblk m c 7 t) (iblk m c 8 t) ?_ ?_ ?_ ?_ ?_ ?_ ?_ ?_ ?_ r cc
  · intro r d
    show V m c main_arg0 (((cfg0.win 0).blk t).view.emb (ix2 r d)) = _
    rw [V_main_arg0]
    refine congrArg _ (funext fun a => Fin.ext ?_)
    match a with
    | ⟨0, _⟩ => show win0_0.index t (0 : Fin 2) * 128 + 1 * r.val = t.val * 128 + r.val; rw [f00]; omega
    | ⟨1, _⟩ => show win0_0.index t (1 : Fin 2) * 512 + 1 * d.val = d.val; rw [f01]; omega
  · intro q d
    show V m c main_arg1 (((cfg0.win 1).blk t).view.emb (ix2 q d)) = _
    rw [V_main_arg1]
    refine congrArg _ (funext fun a => Fin.ext ?_)
    match a with
    | ⟨0, _⟩ => show win0_1.index t (0 : Fin 2) * 1024 + 1 * q.val = t.val * 1024 + q.val; rw [f10]; omega
    | ⟨1, _⟩ => show win0_1.index t (1 : Fin 2) * 512 + 1 * d.val = d.val; rw [f11]; omega
  · intro p d
    show V m c main_arg2 (((cfg0.win 2).blk t).view.emb (ix2 p d)) = _
    rw [V_main_arg2]
    refine congrArg _ (funext fun a => Fin.ext ?_)
    match a with
    | ⟨0, _⟩ => show win0_2.index t (0 : Fin 2) * 8192 + 1 * p.val = t.val * 8192 + p.val; rw [f20]; omega
    | ⟨1, _⟩ => show win0_2.index t (1 : Fin 2) * 512 + 1 * d.val = d.val; rw [f21]; omega
  · funext y
    show V m c main_v0 (((cfg0.win 3).blk t).view.emb y) = _
    rw [V_w10]
    refine congrArg _ (funext fun a => Fin.ext ?_)
    match a with
    | ⟨0, _⟩ => show win0_3.index t (0 : Fin 2) * 512 + 1 * (y 0).val = (y 0).val; rw [f30]; omega
    | ⟨1, _⟩ => show win0_3.index t (1 : Fin 2) * 256 + 1 * (y 1).val = (y 1).val; rw [f31]; omega
  · funext y
    show V m c main_v1 (((cfg0.win 4).blk t).view.emb y) = _
    rw [V_w20]
    refine congrArg _ (funext fun a => Fin.ext ?_)
    match a with
    | ⟨0, _⟩ => show win0_4.index t (0 : Fin 2) * 512 + 1 * (y 0).val = (y 0).val; rw [f40]; omega
    | ⟨1, _⟩ => show win0_4.index t (1 : Fin 2) * 256 + 1 * (y 1).val = (y 1).val; rw [f41]; omega
  · funext y
    show V m c main_v2 (((cfg0.win 5).blk t).view.emb y) = _
    rw [V_w11]
    refine congrArg _ (funext fun a => Fin.ext ?_)
    match a with
    | ⟨0, _⟩ => show win0_5.index t (0 : Fin 2) * 256 + 1 * (y 0).val = (y 0).val; rw [f50]; omega
    | ⟨1, _⟩ => show win0_5.index t (1 : Fin 2) * 128 + 1 * (y 1).val = (y 1).val; rw [f51]; omega
  · funext y
    show V m c main_v3 (((cfg0.win 6).blk t).view.emb y) = _
    rw [V_w21]
    refine congrArg _ (funext fun a => Fin.ext ?_)
    match a with
    | ⟨0, _⟩ => show win0_6.index t (0 : Fin 2) * 256 + 1 * (y 0).val = (y 0).val; rw [f60]; omega
    | ⟨1, _⟩ => show win0_6.index t (1 : Fin 2) * 128 + 1 * (y 1).val = (y 1).val; rw [f61]; omega
  · funext y
    show V m c main_v4 (((cfg0.win 7).blk t).view.emb y) = _
    rw [V_cw]
    refine congrArg _ (funext fun a => Fin.ext ?_)
    match a with
    | ⟨0, _⟩ => show win0_7.index t (0 : Fin 2) * 128 + 1 * (y 0).val = (y 0).val; rw [f70]; omega
    | ⟨1, _⟩ => show win0_7.index t (1 : Fin 2) * 64 + 1 * (y 1).val = (y 1).val; rw [f71]; omega
  · intro cc
    show V m c main_v5 (((cfg0.win 8).blk t).view.emb (ix2 (0 : Fin 1) cc)) = _
    rw [V_cb]
    have he : ((cfg0.win 8).blk t).view.emb (ix2 (0 : Fin 1) cc) = ix2 (0 : Fin 1) cc := by
      funext a
      refine Fin.ext ?_
      match a with
      | ⟨0, _⟩ => show win0_8.index t (0 : Fin 2) * 1 + 1 * 0 = 0; rw [f80]
      | ⟨1, _⟩ => show win0_8.index t (1 : Fin 2) * 64 + 1 * cc.val = cc.val; rw [f81]; omega
    rw [he]
    exact shapeCast_a_1a_apply _ _ (0 : Fin 1) cc

/-! ## The blocks tile the result -/

/-- An index of the result is in point `t`'s block iff each coordinate is in the block's range on its axis. -/
theorem mem_blk (t : Fin cfg0.N) (i : S8192x64.Idx) :
    i ∈ ((cfg0.win 9).blk t).view.set ↔ ∀ a : Fin 2, win0_9.index t a * S128x64.size a ≤ (i a).val
      ∧ (i a).val < win0_9.index t a * S128x64.size a + S128x64.size a := by
  show i ∈ ((View.whole main_v6).slice (win0_9.rect t)).set ↔ _
  rw [View.set_slice_whole, Rect.mem_set_unit]
  exact Iff.rfl

/-- Row `q` of the result is written by point `q / 128`. -/
theorem cover (i : S8192x64.Idx) : ∃ t : Fin cfg0.N, (cfg0.win 9).flush t = true ∧ i ∈ ((cfg0.win 9).blk t).view.set := by
  have hi0 : (i 0).val < 8192 := (i 0).isLt
  have hi1 : (i 1).val < 64 := (i 1).isLt
  have hN : cfg0.N = 64 := N_0
  let t : Fin cfg0.N := ⟨(i 0).val / 128, by rw [hN]; omega⟩
  obtain ⟨-, -, -, -, -, -, -, -, -, -, -, -, -, -, -, -, -, -, f90, f91⟩ := idx_facts t
  have f90' : win0_9.index t (0 : Fin 2) = (i 0).val / 128 := f90
  refine ⟨t, flush0_9 t, ?_⟩
  rw [mem_blk]
  intro a
  match a with
  | ⟨0, _⟩ =>
    show win0_9.index t (0 : Fin 2) * 128 ≤ (i 0).val ∧ (i 0).val < win0_9.index t (0 : Fin 2) * 128 + 128
    rw [f90']; omega
  | ⟨1, _⟩ =>
    show win0_9.index t (1 : Fin 2) * 64 ≤ (i 1).val ∧ (i 1).val < win0_9.index t (1 : Fin 2) * 64 + 64
    rw [f91]; omega

/-- THE RESULT ARRAY after the run is the network of the arguments. -/
theorem final (c : Dev nD) : (dats m 0 c).arrAt 9 cfg0.N = result m c :=
  (dats m 0 c).arrAt_eq_of_cover 9 (result m c) (fun t _ => flushed_eq m c t) (cover)

/-! ## The run, read -/

/-- The kernel program's run: it terminates with the result array at the network of the arguments, the
    arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.Sage

end
-- ==== Proof.RefNet.lean ====
import proofs.«119248_j69140383531488_2_alg».proof.Proof.Gen.ReferenceIdeal.Read
import proofs.«119248_j69140383531488_2_alg».proof.Proof.Spec
import proofs.«119248_j69140383531488_2_alg».proof.Proof.LibPlainDot

/-!
  The reference program, stage by stage, as the network of the specification.

  Each group of host operations is identified, as a function of the argument arrays, with one piece of the
  network: a reshape into groups of eight rows, a sum over the group from zero and a division by the float
  eight is the neighbourhood mean (entry `(r, d)` reads rows `8 r` … `8 r + 7` of its operand, column `d`);
  a `dot_general` contracting the left operand's columns with the right operand's rows is the plain matrix
  product; two products added and rectified are one aggregation layer.
-/

noncomputable section

namespace Cert.Sage

open Cert.ReferenceIdeal Cert.ReferenceIdeal.Read Idealize.ShloMosaic Idealize.ShloMosaic.ValueIdx

/-! ## Grouping rows by eight

  Entry `(r, k, d)` of the reshaped array is entry number `((8 r + k) · D + d)` of the flat one, which in an array
  with `D` columns is row `8 r + k`, column `d`, because `d < D`. -/

/-- First-hop features, 512 columns: the `k`-th row of root `r`'s group is row `8 r + k`. -/
theorem idx_v0_v1 (h : 8192 * 8 = 65536) (i : S8192x512.Idx) (k : Fin 8) :
    idx_main_v0 (idx_main_v1 i k) = ix2 (nbr h (i 0) k) (i 1) := by
  have h0 : (i 0).val < 8192 := (i 0).isLt
  have h1 : (i 1).val < 512 := (i 1).isLt
  have hk : k.val < 8 := k.isLt
  funext a
  refine Fin.ext ?_
  match a with
  | ⟨0, _⟩ =>
    show (((i 0).val * 8 + k.val) * 512 + (i 1).val) / 512 = (i 0).val * 8 + k.val
    omega
  | ⟨1, _⟩ =>
    show (((i 0).val * 8 + k.val) * 512 + (i 1).val) % 512 = (i 1).val
    omega

/-- Second-hop features, 512 columns: the `k`-th row of first-hop node `r`'s group is row `8 r + k`. -/
theorem idx_v8_v9 (h : 65536 * 8 = 524288) (i : S65536x512.Idx) (k : Fin 8) :
    idx_main_v8 (idx_main_v9 i k) = ix2 (nbr h (i 0) k) (i 1) := by
  have h0 : (i 0).val < 65536 := (i 0).isLt
  have h1 : (i 1).val < 512 := (i 1).isLt
  have hk : k.val < 8 := k.isLt
  funext a
  refine Fin.ext ?_
  match a with
  | ⟨0, _⟩ =>
    show (((i 0).val * 8 + k.val) * 512 + (i 1).val) / 512 = (i 0).val * 8 + k.val
    omega
  | ⟨1, _⟩ =>
    show (((i 0).val * 8 + k.val) * 512 + (i 1).val) % 512 = (i 1).val
    omega

/-- First-hop hidden features, 256 columns: the `k`-th row of root `r`'s group is row `8 r + k`. -/
theorem idx_v16_v17 (h : 8192 * 8 = 65536) (i : S8192x256.Idx) (k : Fin 8) :
    idx_main_v16 (idx_main_v17 i k) = ix2 (nbr h (i 0) k) (i 1) := by
  have h0 : (i 0).val < 8192 := (i 0).isLt
  have h1 : (i 1).val < 256 := (i 1).isLt
  have hk : k.val < 8 := k.isLt
  funext a
  refine Fin.ext ?_
  match a with
  | ⟨0, _⟩ =>
    show (((i 0).val * 8 + k.val) * 256 + (i 1).val) / 256 = (i 0).val * 8 + k.val
    omega
  | ⟨1, _⟩ =>
    show (((i 0).val * 8 + k.val) * 256 + (i 1).val) % 256 = (i 1).val
    omega

/-! ## The three neighbourhood means

  The sum starts from the constant zero, which adds nothing; the divisor is the float eight at every entry. -/

/-- The mean of the first-hop features over each root's eight neighbours. -/
theorem mean_v3 (h : 8192 * 8 = 65536) (x1 : (⟨S65536x512, .f32⟩ : BufTy).Contents (Elt Ideal)) :
    val_main_v3 (F := Ideal) x1 = fun i => mean8 (cur2 x1) (nbr h) (i 0) (i 1) := by
  funext i
  rw [val_main_v3_apply, val_main_v1_apply, val_main_v2_apply, val_main_cst_0_apply, val_main_cst_apply]
  simp only [val_main_v0_apply, idx_v0_v1 h]
  rw [Ideal.ofBits_def, Ideal.ofBits_zero_f32, zero_add]
  rfl

/-- The mean of the second-hop features over each first-hop node's eight neighbours. -/
theorem mean_v11 (h : 65536 * 8 = 524288) (x2 : (⟨S524288x512, .f32⟩ : BufTy).Contents (Elt Ideal)) :
    val_main_v11 (F := Ideal) x2 = fun i => mean8 (cur2 x2) (nbr h) (i 0) (i 1) := by
  funext i
  rw [val_main_v11_apply, val_main_v9_apply, val_main_v10_apply, val_main_cst_2_apply, val_main_cst_1_apply]
  simp only [val_main_v8_apply, idx_v8_v9 h]
  rw [Ideal.ofBits_def, Ideal.ofBits_zero_f32, zero_add]
  rfl

/-- The mean of the first-hop nodes' hidden features over each root's eight neighbours. -/
theorem mean_v19 (h : 8192 * 8 = 65536) (x1 : (⟨S65536x512, .f32⟩ : BufTy).Contents (Elt Ideal)) (x2 : (⟨S524288x512, .f32⟩ : BufTy).Contents (Elt Ideal)) (x3 x4 : (⟨S512x256, .f32⟩ : BufTy).Contents (Elt Ideal)) :
    val_main_v19 (F := Ideal) x1 x2 x3 x4
      = fun i => mean8 (cur2 (val_main_v15 (F := Ideal) x1 x2 x3 x4)) (nbr h) (i 0) (i 1) := by
  funext i
  rw [val_main_v19_apply, val_main_v17_apply, val_main_v18_apply, val_main_cst_4_apply, val_main_cst_3_apply]
  simp only [val_main_v16_apply, idx_v16_v17 h]
  rw [Ideal.ofBits_def, Ideal.ofBits_zero_f32, zero_add]
  rfl

/-! ## The seven matrix products

  Entry `(r, c)` of each is the sum over `k` of the left operand at `(r, k)` times the right operand at `(k, c)`. -/

/-- The roots' features times the second first-layer weight matrix. -/
theorem dot_v4 (x0 : (⟨S8192x512, .f32⟩ : BufTy).Contents (Elt Ideal)) (x4 : (⟨S512x256, .f32⟩ : BufTy).Contents (Elt Ideal)) :
    val_main_v4 (F := Ideal) x0 x4 = fun i => ∑ k : Fin 512, cur2 x0 (i 0) k * cur2 x4 k (i 1) := by
  funext i
  refine (val_main_v4_apply x0 x4 i).trans (Finset.sum_congr rfl fun k _ => ?_)
  exact congrArg₂ (· * ·)
    (congrArg _ (funext fun a => by match a with | ⟨0, _⟩ => rfl | ⟨1, _⟩ => rfl))
    (congrArg _ (funext fun a => by match a with | ⟨0, _⟩ => rfl | ⟨1, _⟩ => rfl))

/-- The mean of the roots' neighbours' features times the first first-layer weight matrix. -/
theorem dot_v5 (x1 : (⟨S65536x512, .f32⟩ : BufTy).Contents (Elt Ideal)) (x3 : (⟨S512x256, .f32⟩ : BufTy).Contents (Elt Ideal)) :
    val_main_v5 (F := Ideal) x1 x3 = fun i => ∑ k : Fin 512, cur2 (val_main_v3 (F := Ideal) x1) (i 0) k * cur2 x3 k (i 1) := by
  funext i
  refine (val_main_v5_apply x1 x3 i).trans (Finset.sum_congr rfl fun k _ => ?_)
  exact congrArg₂ (· * ·)
    (congrArg _ (funext fun a => by match a with | ⟨0, _⟩ => rfl | ⟨1, _⟩ => rfl))
    (congrArg _ (funext fun a => by match a with | ⟨0, _⟩ => rfl | ⟨1, _⟩ => rfl))

/-- The first-hop nodes' features times the second first-layer weight matrix. -/
theorem dot_v12 (x1 : (⟨S65536x512, .f32⟩ : BufTy).Contents (Elt Ideal)) (x4 : (⟨S512x256, .f32⟩ : BufTy).Contents (Elt Ideal)) :
    val_main_v12 (F := Ideal) x1 x4 = fun i => ∑ k : Fin 512, cur2 x1 (i 0) k * cur2 x4 k (i 1) := by
  funext i
  refine (val_main_v12_apply x1 x4 i).trans (Finset.sum_congr rfl fun k _ => ?_)
  exact congrArg₂ (· * ·)
    (congrArg _ (funext fun a => by match a with | ⟨0, _⟩ => rfl | ⟨1, _⟩ => rfl))
    (congrArg _ (funext fun a => by match a with | ⟨0, _⟩ => rfl | ⟨1, _⟩ => rfl))

/-- The mean of the first-hop nodes' neighbours' features times the first first-layer weight matrix. -/
theorem dot_v13 (x2 : (⟨S524288x512, .f32⟩ : BufTy).Contents (Elt Ideal)) (x3 : (⟨S512x256, .f32⟩ : BufTy).Contents (Elt Ideal)) :
    val_main_v13 (F := Ideal) x2 x3 = fun i => ∑ k : Fin 512, cur2 (val_main_v11 (F := Ideal) x2) (i 0) k * cur2 x3 k (i 1) := by
  funext i
  refine (val_main_v13_apply x2 x3 i).trans (Finset.sum_congr rfl fun k _ => ?_)
  exact congrArg₂ (· * ·)
    (congrArg _ (funext fun a => by match a with | ⟨0, _⟩ => rfl | ⟨1, _⟩ => rfl))
    (congrArg _ (funext fun a => by match a with | ⟨0, _⟩ => rfl | ⟨1, _⟩ => rfl))

/-- The roots' hidden features times the second second-layer weight matrix. -/
theorem dot_v20 (x0 : (⟨S8192x512, .f32⟩ : BufTy).Contents (Elt Ideal)) (x1 : (⟨S65536x512, .f32⟩ : BufTy).Contents (Elt Ideal)) (x3 x4 : (⟨S512x256, .f32⟩ : BufTy).Contents (Elt Ideal)) (x6 : (⟨S256x128, .f32⟩ : BufTy).Contents (Elt Ideal)) :
    val_main_v20 (F := Ideal) x0 x1 x3 x4 x6 = fun i => ∑ k : Fin 256, cur2 (val_main_v7 (F := Ideal) x0 x1 x3 x4) (i 0) k * cur2 x6 k (i 1) := by
  funext i
  refine (val_main_v20_apply x0 x1 x3 x4 x6 i).trans (Finset.sum_congr rfl fun k _ => ?_)
  exact congrArg₂ (· * ·)
    (congrArg _ (funext fun a => by match a with | ⟨0, _⟩ => rfl | ⟨1, _⟩ => rfl))
    (congrArg _ (funext fun a => by match a with | ⟨0, _⟩ => rfl | ⟨1, _⟩ => rfl))

/-- The mean of the roots' neighbours' hidden features times the first second-layer weight matrix. -/
theorem dot_v21 (x1 : (⟨S65536x512, .f32⟩ : BufTy).Contents (Elt Ideal)) (x2 : (⟨S524288x512, .f32⟩ : BufTy).Contents (Elt Ideal)) (x3 x4 : (⟨S512x256, .f32⟩ : BufTy).Contents (Elt Ideal)) (x5 : (⟨S256x128, .f32⟩ : BufTy).Contents (Elt Ideal)) :
    val_main_v21 (F := Ideal) x1 x2 x3 x4 x5 = fun i => ∑ k : Fin 256, cur2 (val_main_v19 (F := Ideal) x1 x2 x3 x4) (i 0) k * cur2 x5 k (i 1) := by
  funext i
  refine (val_main_v21_apply x1 x2 x3 x4 x5 i).trans (Finset.sum_congr rfl fun k _ => ?_)
  exact congrArg₂ (· * ·)
    (congrArg _ (funext fun a => by match a with | ⟨0, _⟩ => rfl | ⟨1, _⟩ => rfl))
    (congrArg _ (funext fun a => by match a with | ⟨0, _⟩ => rfl | ⟨1, _⟩ => rfl))

/-- The roots' second-layer features times the classifier's weight matrix. -/
theorem dot_v24 (x0 : (⟨S8192x512, .f32⟩ : BufTy).Contents (Elt Ideal)) (x1 : (⟨S65536x512, .f32⟩ : BufTy).Contents (Elt Ideal)) (x2 : (⟨S524288x512, .f32⟩ : BufTy).Contents (Elt Ideal)) (x3 x4 : (⟨S512x256, .f32⟩ : BufTy).Contents (Elt Ideal)) (x5 x6 : (⟨S256x128, .f32⟩ : BufTy).Contents (Elt Ideal)) (x7 : (⟨S128x64, .f32⟩ : BufTy).Contents (Elt Ideal)) :
    val_main_v24 (F := Ideal) x0 x1 x2 x3 x4 x5 x6 x7 = fun i => ∑ k : Fin 128, cur2 (val_main_v23 (F := Ideal) x0 x1 x2 x3 x4 x5 x6) (i 0) k * cur2 x7 k (i 1) := by
  funext i
  refine (val_main_v24_apply x0 x1 x2 x3 x4 x5 x6 x7 i).trans (Finset.sum_congr rfl fun k _ => ?_)
  exact congrArg₂ (· * ·)
    (congrArg _ (funext fun a => by match a with | ⟨0, _⟩ => rfl | ⟨1, _⟩ => rfl))
    (congrArg _ (funext fun a => by match a with | ⟨0, _⟩ => rfl | ⟨1, _⟩ => rfl))

/-! ## The layers and the classifier

  The three rectified sums of two matrix products are the three aggregation layers (the roots' and the first-hop
  nodes' hidden features, then the roots' second layer over those two), and the last product with the bias row
  added to every row is the classifier. -/

/-- The roots' hidden features: the roots' own features through the second weight matrix plus the mean of
    their neighbours' features through the first, rectified. -/
theorem hop0_v7 (h1 : 8192 * 8 = 65536) (x0 : (⟨S8192x512, .f32⟩ : BufTy).Contents (Elt Ideal)) (x1 : (⟨S65536x512, .f32⟩ : BufTy).Contents (Elt Ideal)) (x3 x4 : (⟨S512x256, .f32⟩ : BufTy).Contents (Elt Ideal)) :
    val_main_v7 (F := Ideal) x0 x1 x3 x4
      = fun i => hop0 (nbr h1) (cur2 x0) (cur2 x1) (cur2 x3) (cur2 x4) (i 0) (i 1) := by
  funext i
  rw [val_main_v7_apply, val_main_v6_apply, val_main_call0_v0_apply, val_main_call0_cst_apply,
    dot_v4, dot_v5, mean_v3 h1]
  rfl

/-- The first-hop nodes' hidden features, the same layer one hop further out. -/
theorem hop1_v15 (h2 : 65536 * 8 = 524288) (x1 : (⟨S65536x512, .f32⟩ : BufTy).Contents (Elt Ideal)) (x2 : (⟨S524288x512, .f32⟩ : BufTy).Contents (Elt Ideal)) (x3 x4 : (⟨S512x256, .f32⟩ : BufTy).Contents (Elt Ideal)) :
    val_main_v15 (F := Ideal) x1 x2 x3 x4
      = fun i => hop1 (nbr h2) (cur2 x1) (cur2 x2) (cur2 x3) (cur2 x4) (i 0) (i 1) := by
  funext i
  rw [val_main_v15_apply, val_main_v14_apply, val_main_call1_v0_apply, val_main_call1_cst_apply,
    dot_v12, dot_v13, mean_v11 h2]
  rfl

/-- The roots' second layer: their hidden features through the second weight matrix plus the mean of their
    neighbours' hidden features through the first, rectified. -/
theorem layer_v23 (h1 : 8192 * 8 = 65536) (h2 : 65536 * 8 = 524288) (x0 : (⟨S8192x512, .f32⟩ : BufTy).Contents (Elt Ideal)) (x1 : (⟨S65536x512, .f32⟩ : BufTy).Contents (Elt Ideal)) (x2 : (⟨S524288x512, .f32⟩ : BufTy).Contents (Elt Ideal)) (x3 x4 : (⟨S512x256, .f32⟩ : BufTy).Contents (Elt Ideal)) (x5 x6 : (⟨S256x128, .f32⟩ : BufTy).Contents (Elt Ideal)) :
    val_main_v23 (F := Ideal) x0 x1 x2 x3 x4 x5 x6
      = fun i => layer (hop0 (nbr h1) (cur2 x0) (cur2 x1) (cur2 x3) (cur2 x4))
          (mean8 (hop1 (nbr h2) (cur2 x1) (cur2 x2) (cur2 x3) (cur2 x4)) (nbr h1)) (cur2 x5) (cur2 x6) (i 0) (i 1) := by
  funext i
  rw [val_main_v23_apply, val_main_v22_apply, val_main_call2_v0_apply, val_main_call2_cst_apply,
    dot_v20, dot_v21, mean_v19 h1, hop0_v7 h1, hop1_v15 h2]
  rfl

/-- The bias row broadcast to every row, at entry `(r, c)`, is the bias at `c`. -/
theorem bias_v26 (x8 : (⟨S64, .f32⟩ : BufTy).Contents (Elt Ideal)) (i : S8192x64.Idx) : val_main_v26 (F := Ideal) x8 i = cur1 x8 (i 1) := by
  rw [val_main_v26_apply, val_main_v25_apply]
  exact congrArg x8 (funext fun a => by match a with | ⟨0, _⟩ => rfl)

open Cert.ReferenceIdeal in
/-- The reference program's result is the network of its nine arguments. -/
theorem ref_eq (x0 : (⟨S8192x512, .f32⟩ : BufTy).Contents (Elt Ideal)) (x1 : (⟨S65536x512, .f32⟩ : BufTy).Contents (Elt Ideal)) (x2 : (⟨S524288x512, .f32⟩ : BufTy).Contents (Elt Ideal)) (x3 x4 : (⟨S512x256, .f32⟩ : BufTy).Contents (Elt Ideal)) (x5 x6 : (⟨S256x128, .f32⟩ : BufTy).Contents (Elt Ideal)) (x7 : (⟨S128x64, .f32⟩ : BufTy).Contents (Elt Ideal)) (x8 : (⟨S64, .f32⟩ : BufTy).Contents (Elt Ideal)) :
    Cert.ReferenceIdeal.Read.val_main_v27 (F := Ideal) x0 x1 x2 x3 x4 x5 x6 x7 x8 = sage x0 x1 x2 x3 x4 x5 x6 x7 x8 := by
  have h1 : 8192 * 8 = 65536 := by norm_num
  have h2 : 65536 * 8 = 524288 := by norm_num
  funext i
  rw [val_main_v27_apply, bias_v26, dot_v24, layer_v23 h1 h2]
  rfl

end Cert.Sage

end
-- ==== Proof.lean ====
/-
  A two-hop neighbourhood-mean network (two aggregation layers and a linear classifier), computed by one fused kernel
  tile by tile against the plain array program.

  Both programs, read at the extended reals, compute the same function of the nine argument arrays: at result entry
  `(r, c)`, `∑_g b0 r g · cls_w g c + cls_b c`, where `b0 = max (a0 · w2_1 + mean₈ a1 · w1_1) 0`,
  `a0 = max (nf0 · w2_0 + mean₈ nf1 · w1_0) 0` at the roots and `a1 = max (nf1 · w2_0 + mean₈ nf2 · w1_0) 0` at the
  first-hop nodes, and `mean₈ X` at row `n` is the sum of rows `8 n … 8 n + 7` of `X` divided by the float `8.0`
  (`Spec.lean`: `Cert.Sage.sage`). The array program does this on the whole arrays (`RefNet.lean`). The kernel
  does it for 128 consecutive roots at a time: a root's result depends only on its own eight first-hop rows and
  their sixty-four second-hop rows, which are consecutive too, so the network of a tile's blocks is the network of
  the whole arrays at the tile's rows (`Spec.lean` `net_restrict`, `TileNet.lean`); inside a tile the second-hop
  means are taken in eight chunks into a scratch buffer, which reads back as one function (`KernelValue.lean`);
  changing the float format before a product is the identity on extended reals; and the 64 tiles' blocks tile the
  result (`KernelRun.lean`). No law used needs finite values: only the order and grouping of sums differ, so the
  precondition is not opened. The kernel's idealization rewrote nothing, so `preserves` is `True`.
-/
import proofs.«119248_j69140383531488_2_alg».proof.Defs
import proofs.«119248_j69140383531488_2_alg».proof.Proof.Gen.Kernel
import proofs.«119248_j69140383531488_2_alg».proof.Proof.Gen.Kernel.Frame
import proofs.«119248_j69140383531488_2_alg».proof.Proof.Gen.KernelIdeal
import proofs.«119248_j69140383531488_2_alg».proof.Proof.Gen.KernelIdeal.Frame
import proofs.«119248_j69140383531488_2_alg».proof.Proof.Gen.ReferenceIdeal
import proofs.«119248_j69140383531488_2_alg».proof.Proof.Gen.Pre_finite_inputs
import proofs.«119248_j69140383531488_2_alg».proof.Proof.Gen.KernelIdeal.Value
import proofs.«119248_j69140383531488_2_alg».proof.Proof.Gen.ReferenceIdeal.Run
import proofs.«119248_j69140383531488_2_alg».proof.Proof.Gen.ReferenceIdeal.Read
import proofs.«119248_j69140383531488_2_alg».proof.Proof.KernelRun
import proofs.«119248_j69140383531488_2_alg».proof.Proof.RefNet
import Idealize.ShloMosaic.Adequacy
import Idealize.ShloMosaic.Init

noncomputable section

namespace Cert.Proof

open Idealize.ShloMosaic Idealize.ShloMosaic.TcCoe Idealize.SL.Sem

/-- The word-level kernel runs and leaves its arguments as they were: its generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The array program runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of those arguments in their
    result arrays. -/
theorem algebraic : Cert.algebraic_KernelIdeal_ReferenceIdeal := by
  intro m ρ m' ρ' _ hagree
  refine ⟨fun c => Cert.Sage.result m c, Cert.Sage.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v27_eq, Cert.Sage.ref_eq, a0, a1, a2, a3, a4, a5, a6, a7, a8]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
